-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x640 : Shape := ⟨3, ![8, 256, 640]⟩
abbrev S8x64x640 : Shape := ⟨3, ![8, 64, 640]⟩
abbrev S1025x640 : Shape := ⟨2, ![1025, 640]⟩
abbrev S1025 : Shape := ⟨1, ![1025]⟩
abbrev S_ : Shape := ⟨0, ![]⟩

class Facts : Prop where
  bcast_S_S8x256x640 : S_.BroadcastsInDim S8x256x640 (![] : Fin 0 → Fin S8x256x640.rank)
  reducesTo_S8x256x640_S_d0_1_2 : S8x256x640.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S1025x640 : S_.BroadcastsInDim S1025x640 (![] : Fin 0 → Fin S1025x640.rank)
  reducesTo_S1025x640_S_d0_1 : S1025x640.ReducesTo [0, 1] S_
  bcast_S_S1025 : S_.BroadcastsInDim S1025 (![] : Fin 0 → Fin S1025.rank)
  reducesTo_S1025_S_d0 : S1025.ReducesTo [0] S_

variable [Facts]

def fn_part1 {F : FTy → Type} [FloatOps F] (main_v13 : IVec S_ 1) (main_v16 : IVec S1025 1) : IVec S_ 1 :=
  let main_c_5 : IVec S_ 1 := constantI S_ 1 1#1
  let main_v17 : IVec S_ 1 := (fun x v => Host.reduce IntOp.andi x v reducesTo_S1025_S_d0 h_S_) main_v16 main_c_5
  let main_v18 : IVec S_ 1 := andi main_v13 main_v17
  main_v18

def fn {F : FTy → Type} [FloatOps F] (main_arg0 : FVec F S8x256x640 .f32) (main_arg1 : FVec F S8x64x640 .f32) (main_arg2 : FVec F S1025x640 .f32) (main_arg3 : FVec F S1025 .f32) : IVec S_ 1 :=
  let main_v0 : FVec F S8x256x640 .f32 := Host.absf main_arg0
  let main_cst : FVec F S_ .f32 := constant S_ .f32 0x7F800000#32
  let main_v1 : FVec F S8x256x640 .f32 := broadcastInDim S8x256x640 ![] bcast_S_S8x256x640 main_cst
  let main_v2 : IVec S8x256x640 1 := cmpf .olt main_v0 main_v1
  let main_c : IVec S_ 1 := constantI S_ 1 1#1
  let main_v3 : IVec S_ 1 := (fun x v => Host.reduce IntOp.andi x v reducesTo_S8x256x640_S_d0_1_2 h_S_) main_v2 main_c
  let main_v4 : FVec F S8x64x640 .f32 := Host.absf main_arg1
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S1025x640 .f32 := Host.absf main_arg2
  let main_cst_2 : FVec F S_ .f32 := constant S_ .f32 0x7F800000#32
  let main_v10 : FVec F S1025x640 .f32 := broadcastInDim S1025x640 ![] bcast_S_S1025x640 main_cst_2
  let main_v11 : IVec S1025x640 1 := cmpf .olt main_v9 main_v10
  let main_c_3 : IVec S_ 1 := constantI S_ 1 1#1
  let main_v12 : IVec S_ 1 := (fun x v => Host.reduce IntOp.andi x v reducesTo_S1025x640_S_d0_1 h_S_) main_v11 main_c_3
  let main_v13 : IVec S_ 1 := andi main_v8 main_v12
  let main_v14 : FVec F S1025 .f32 := Host.absf main_arg3
  let main_cst_4 : FVec F S_ .f32 := constant S_ .f32 0x7F800000#32
  let main_v15 : FVec F S1025 .f32 := broadcastInDim S1025 ![] bcast_S_S1025 main_cst_4
  let main_v16 : IVec S1025 1 := cmpf .olt main_v14 main_v15
  fn_part1 (F := F) main_v13 main_v16
-- ==== Kernel.lean ====
abbrev S8x256x640 : Shape := ⟨3, ![8, 256, 640]⟩
abbrev S8x64x640 : Shape := ⟨3, ![8, 64, 640]⟩
abbrev S1025x640 : Shape := ⟨2, ![1025, 640]⟩
abbrev S1025 : Shape := ⟨1, ![1025]⟩
abbrev S640x1025 : Shape := ⟨2, ![640, 1025]⟩
abbrev S8x256x64x1025 : Shape := ⟨4, ![8, 256, 64, 1025]⟩
abbrev S1x16x640 : Shape := ⟨3, ![1, 16, 640]⟩
abbrev S1x64x640 : Shape := ⟨3, ![1, 64, 640]⟩
abbrev S1x16x64x1025 : Shape := ⟨4, ![1, 16, 64, 1025]⟩
abbrev S16x640 : Shape := ⟨2, ![16, 640]⟩
abbrev S64x640 : Shape := ⟨2, ![64, 640]⟩
abbrev S16x1x640 : Shape := ⟨3, ![16, 1, 640]⟩
abbrev S16x64x640 : Shape := ⟨3, ![16, 64, 640]⟩
abbrev S1024x640 : Shape := ⟨2, ![1024, 640]⟩
abbrev S1024x1025 : Shape := ⟨2, ![1024, 1025]⟩
abbrev S1x1025 : Shape := ⟨2, ![1, 1025]⟩
abbrev S1024 : Shape := ⟨1, ![1024]⟩
abbrev S1024x1 : Shape := ⟨2, ![1024, 1]⟩
abbrev S16x64x1025 : Shape := ⟨3, ![16, 64, 1025]⟩

abbrev nBuf : Space → Nat
  | .hbm => 7
  | .vmem => 8
  | .smem => 0
  | _ => 0

abbrev bufTy : (tb : Table) → Fin (tcTables nBuf tb) → BufTy
  | .hbm, ⟨0, _⟩ => ⟨S8x256x640, .f32⟩
  | .hbm, ⟨1, _⟩ => ⟨S8x64x640, .f32⟩
  | .hbm, ⟨2, _⟩ => ⟨S1025x640, .f32⟩
  | .hbm, ⟨3, _⟩ => ⟨S1025, .f32⟩
  | .hbm, ⟨4, _⟩ => ⟨S640x1025, .f32⟩
  | .hbm, ⟨5, _⟩ => ⟨S640x1025, .bf16⟩
  | .hbm, ⟨6, _⟩ => ⟨S8x256x64x1025, .f32⟩
  | .local _ .vmem, ⟨0, _⟩ => ⟨S1x16x640, .f32⟩
  | .local _ .vmem, ⟨1, _⟩ => ⟨S1x16x640, .f32⟩
  | .local _ .vmem, ⟨2, _⟩ => ⟨S1x64x640, .f32⟩
  | .local _ .vmem, ⟨3, _⟩ => ⟨S1x64x640, .f32⟩
  | .local _ .vmem, ⟨4, _⟩ => ⟨S640x1025, .bf16⟩
  | .local _ .vmem, ⟨5, _⟩ => ⟨S1025, .f32⟩
  | .local _ .vmem, ⟨6, _⟩ => ⟨S1x16x64x1025, .f32⟩
  | .local _ .vmem, ⟨7, _⟩ => ⟨S1x16x64x1025, .f32⟩
  | _, _ => ⟨S8x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S640x1025 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1025 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x64x1025 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1025x640_S640x1025_1_0 : S1025x640.Transposes [1, 0] S640x1025
  bitsLt_bf16_f32 : FTy.bits .bf16 < FTy.bits .f32
  inb_S1x16x640_S1x16x640_0_0_0 : ∀ a, (![0, 0, 0] : Fin 3 → Nat) a + S1x16x640.size a ≤ S1x16x640.size a
  h_S1x16x640 : 0 < S1x16x640.numel
  shapeCasts_S1x16x640_S16x640 : S1x16x640.ShapeCasts S16x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  shapeCasts_S16x64x640_S1024x640 : S16x64x640.ShapeCasts S1024x640
  inb_S640x1025_S640x1025_0_0 : ∀ a, (![0, 0] : Fin 2 → Nat) a + S640x1025.size a ≤ S640x1025.size a
  h_S640x1025 : 0 < S640x1025.numel
  shapeCasts_S640x1025_S640x1025 : S640x1025.ShapeCasts S640x1025
  inb_S1025_S1025_0 : ∀ a, (![0] : Fin 1 → Nat) a + S1025.size a ≤ S1025.size a
  h_S1025 : 0 < S1025.numel
  shapeCasts_S1025_S1x1025 : S1025.ShapeCasts S1x1025
  broadcasts_S1x1025_S1024x1025 : S1x1025.Broadcasts S1024x1025
  reduces_S1024x1025_S1024 : S1024x1025.Reduces [1] S1024
  shapeCasts_S1024_S1024x1 : S1024.ShapeCasts S1024x1
  broadcasts_S1024x1_S1024x1025 : S1024x1.Broadcasts S1024x1025
  shapeCasts_S1024x1025_S16x64x1025 : S1024x1025.ShapeCasts S16x64x1025
  inb_S1x16x64x1025_S1x16x64x1025_0_0_0_0 : ∀ a, (![0, 0, 0, 0] : Fin 4 → Nat) a + S1x16x64x1025.size a ≤ S1x16x64x1025.size a
  h_S1x16x64x1025 : 0 < S1x16x64x1025.numel
  shapeCasts_S1x16x64x1025_S16x64x1025 : S1x16x64x1025.ShapeCasts S16x64x1025
  shapeCasts_S16x64x1025_S1x16x64x1025 : S16x64x1025.ShapeCasts S1x16x64x1025
  dot_S1024x640_S640x1025_S1024x1025_1_0_0_1_n_n_wf : DotDims.WF S1024x640 S640x1025 S1024x1025 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x640.size a ≤ S8x256x640.size a
  hwx0_0 : ∀ i : grid0.Coords, EltTy.bits .f32 = 32 ∨ (Rect.block (s := S8x256x640) S1x16x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S8x64x640.size a
  hwx0_1 : ∀ i : grid0.Coords, EltTy.bits .f32 = 32 ∨ (Rect.block (s := S8x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1025.size a ≤ S640x1025.size a
  hwx0_2 : ∀ i : grid0.Coords, EltTy.bits .bf16 = 32 ∨ (Rect.block (s := S640x1025) S640x1025.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1025.size a ≤ S1025.size a
  hwx0_3 : ∀ i : grid0.Coords, EltTy.bits .f32 = 32 ∨ (Rect.block (s := S1025) S1025.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x64x1025.size a ≤ S8x256x64x1025.size a
  hwx0_4 : ∀ i : grid0.Coords, EltTy.bits .f32 = 32 ∨ (Rect.block (s := S8x256x64x1025) S1x16x64x1025.size (cc0_transform_4 i) (hinb0_4 i)).WholeWords (EltTy.packing .f32)

variable [Facts₀]

def dot_S1024x640_S640x1025_S1024x1025_1_0_0_1_n_n : DotDims S1024x640 S640x1025 S1024x1025 where
  lhsContracting := [1]
  rhsContracting := [0]
  lhsNonContracting := [0]
  rhsNonContracting := [1]
  lhsBatch := []
  rhsBatch := []
  wf := dot_S1024x640_S640x1025_S1024x1025_1_0_0_1_n_n_wf

abbrev win0_0 : Pipeline.Window sig grid0 :=
  Pipeline.Window.ofSpec (Memref.whole main_arg0) S1x16x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S640x1025.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1025.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16x64x1025.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x640 : Shape := ⟨3, ![8, 256, 640]⟩
abbrev S8x64x640 : Shape := ⟨3, ![8, 64, 640]⟩
abbrev S1025x640 : Shape := ⟨2, ![1025, 640]⟩
abbrev S1025 : Shape := ⟨1, ![1025]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S8x256x64x1025 : Shape := ⟨4, ![8, 256, 64, 1025]⟩
abbrev S1x1x1x1025 : Shape := ⟨4, ![1, 1, 1, 1025]⟩
abbrev S_ : Shape := ⟨0, ![]⟩
abbrev S8x256x64 : Shape := ⟨3, ![8, 256, 64]⟩
abbrev S8x256x64x1 : Shape := ⟨4, ![8, 256, 64, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x256x640, .f32⟩
  | .hbm, ⟨1, _⟩ => ⟨S8x64x640, .f32⟩
  | .hbm, ⟨2, _⟩ => ⟨S1025x640, .f32⟩
  | .hbm, ⟨3, _⟩ => ⟨S1025, .f32⟩
  | .hbm, ⟨4, _⟩ => ⟨S8x256x1x640, .f32⟩
  | .hbm, ⟨5, _⟩ => ⟨S8x1x64x640, .f32⟩
  | .hbm, ⟨6, _⟩ => ⟨S8x256x64x640, .f32⟩
  | .hbm, ⟨7, _⟩ => ⟨S8x256x64x640, .f32⟩
  | .hbm, ⟨8, _⟩ => ⟨S8x256x64x640, .f32⟩
  | .hbm, ⟨9, _⟩ => ⟨S8x256x64x640, .f32⟩
  | .hbm, ⟨10, _⟩ => ⟨S8x256x64x1025, .f32⟩
  | .hbm, ⟨11, _⟩ => ⟨S1x1x1x1025, .f32⟩
  | .hbm, ⟨12, _⟩ => ⟨S8x256x64x1025, .f32⟩
  | .hbm, ⟨13, _⟩ => ⟨S8x256x64x1025, .f32⟩
  | .hbm, ⟨14, _⟩ => ⟨S_, .f32⟩
  | .hbm, ⟨15, _⟩ => ⟨S8x256x64, .f32⟩
  | .hbm, ⟨16, _⟩ => ⟨S_, .f32⟩
  | .hbm, ⟨17, _⟩ => ⟨S8x256x64, .f32⟩
  | .hbm, ⟨18, _⟩ => ⟨S8x256x64, .f32⟩
  | .hbm, ⟨19, _⟩ => ⟨S8x256x64x1, .f32⟩
  | .hbm, ⟨20, _⟩ => ⟨S8x256x64x1025, .f32⟩
  | .hbm, ⟨21, _⟩ => ⟨S8x256x64x1025, .f32⟩
  | .hbm, ⟨22, _⟩ => ⟨S8x256x64x1025, .f32⟩
  | .hbm, ⟨23, _⟩ => ⟨S_, .f32⟩
  | .hbm, ⟨24, _⟩ => ⟨S8x256x64, .f32⟩
  | .hbm, ⟨25, _⟩ => ⟨S8x256x64x1, .f32⟩
  | .hbm, ⟨26, _⟩ => ⟨S8x256x64x1, .f32⟩
  | .hbm, ⟨27, _⟩ => ⟨S8x256x64x1025, .f32⟩
  | .hbm, ⟨28, _⟩ => ⟨S8x256x64x1025, .f32⟩
  | _, _ => ⟨S8x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v10 : Ref sig .tc := ⟨.hbm, 28, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S1025_S1x1x1x1025_3 : S1025.BroadcastsInDim S1x1x1x1025 (![3] : Fin 1 → Fin S1x1x1x1025.rank)
  bcast_S1x1x1x1025_S8x256x64x1025_0_1_2_3 : S1x1x1x1025.BroadcastsInDim S8x256x64x1025 (![0, 1, 2, 3] : Fin 4 → Fin S8x256x64x1025.rank)
  reducesTo_S8x256x64x1025_S8x256x64_d3 : S8x256x64x1025.ReducesTo [3] S8x256x64
  h_S_ : 0 < S_.numel
  bcast_S_S8x256x64 : S_.BroadcastsInDim S8x256x64 (![] : Fin 0 → Fin S8x256x64.rank)
  bcast_S8x256x64_S8x256x64x1_0_1_2 : S8x256x64.BroadcastsInDim S8x256x64x1 (![0, 1, 2] : Fin 3 → Fin S8x256x64x1.rank)
  bcast_S8x256x64x1_S8x256x64x1025_0_1_2_3 : S8x256x64x1.BroadcastsInDim S8x256x64x1025 (![0, 1, 2, 3] : Fin 4 → Fin S8x256x64x1025.rank)
  dot_S8x256x64x640_S1025x640_S8x256x64x1025_3_1_012_0_n_n_wf : DotDims.WF S8x256x64x640 S1025x640 S8x256x64x1025 [3] [1] [0, 1, 2] [0] [] []

variable [Facts₀]

def dot_S8x256x64x640_S1025x640_S8x256x64x1025_3_1_012_0_n_n : DotDims S8x256x64x640 S1025x640 S8x256x64x1025 where
  lhsContracting := [3]
  rhsContracting := [1]
  lhsNonContracting := [0, 1, 2]
  rhsNonContracting := [0]
  lhsBatch := []
  rhsBatch := []
  wf := dot_S8x256x64x640_S1025x640_S8x256x64x1025_3_1_012_0_n_n_wf

class Facts : Prop extends Facts₀ where

variable [Facts]
-- ==== Proof.Spec.lean ====
/-
  The joint network's log-probabilities as ONE function of its four arguments, on the extended reals.

  For a batch entry b, an encoder frame t, a decoder position u and a token v the logit is
      logit(b,t,u,v) = (Σ_k tanh(enc[b,t,k] + dec[b,u,k]) · W[v,k]) + bias[v],
  and the result is the log-softmax of the row v ↦ logit(b,t,u,v): with m the row's maximum (a fold of `max` that starts
  from a given value, in both programs the one the float pattern of -∞ denotes),
      out(b,t,u,v) = (logit(b,t,u,v) - m) - log (Σ_w exp (logit(b,t,u,w) - m)).
  Nothing here is rearranged: the two programs compute this very expression, each laid out its own way, so no law of
  the extended reals beyond 0 + x = x and max(c, fold from c) = fold from c is needed, and finiteness of the inputs is
  not used.
-/
import Idealize.ShloMosaic.PureOps.Ideal
import Idealize.ShloMosaic.Lib.ValueIdx

noncomputable section

namespace Cert.Joiner

open Idealize.ShloMosaic Idealize.ShloMosaic.ValueIdx

/-- The log-softmax of one row l at its entry v, the row's maximum taken as the fold of `max` from `bot`. -/
def logSoftmaxRow {n : ℕ} (bot : EReal) (l : Fin n → EReal) (v : Fin n) : EReal :=
  (l v - (Finset.univ : Finset (Fin n)).fold max bot l)
    - Ideal.log (∑ w : Fin n, Ideal.exp (l w - (Finset.univ : Finset (Fin n)).fold max bot l))

/-- The logit of token v at (b, t, u): the hidden vector tanh(enc[b,t,·] + dec[b,u,·]) against row v of W, plus the
    bias of v. -/
def logit (enc : (⟨3, ![8, 256, 640]⟩ : Shape).Idx → EReal) (dec : (⟨3, ![8, 64, 640]⟩ : Shape).Idx → EReal)
    (W : (⟨2, ![1025, 640]⟩ : Shape).Idx → EReal) (bias : (⟨1, ![1025]⟩ : Shape).Idx → EReal)
    (b : Fin 8) (t : Fin 256) (u : Fin 64) (v : Fin 1025) : EReal :=
  (∑ k : Fin 640, Ideal.tanh (enc (ix3 b t k) + dec (ix3 b u k)) * W (ix2 v k)) + bias (ix1 v)

/-- The whole result array: at (b, t, u, v) the log-softmax over the tokens of the logits at (b, t, u). -/
def joiner (bot : EReal) (enc : (⟨3, ![8, 256, 640]⟩ : Shape).Idx → EReal) (dec : (⟨3, ![8, 64, 640]⟩ : Shape).Idx → EReal)
    (W : (⟨2, ![1025, 640]⟩ : Shape).Idx → EReal) (bias : (⟨1, ![1025]⟩ : Shape).Idx → EReal) :
    (⟨4, ![8, 256, 64, 1025]⟩ : Shape).Idx → EReal :=
  fun i => logSoftmaxRow bot (logit enc dec W bias (i 0) (i 1) (i 2)) (i 3)

/-- The result at an index written by its coordinates. -/
theorem joiner_ix4 (bot : EReal) (enc : (⟨3, ![8, 256, 640]⟩ : Shape).Idx → EReal) (dec : (⟨3, ![8, 64, 640]⟩ : Shape).Idx → EReal)
    (W : (⟨2, ![1025, 640]⟩ : Shape).Idx → EReal) (bias : (⟨1, ![1025]⟩ : Shape).Idx → EReal)
    (b : Fin 8) (t : Fin 256) (u : Fin 64) (v : Fin 1025) :
    joiner bot enc dec W bias (ix4 b t u v) = logSoftmaxRow bot (logit enc dec W bias b t u) v := rfl

end Cert.Joiner

end
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibTile.lean ====
/-
  Layout steps of a kernel that works on a tile of rows, read at an index written by coordinates.

  A tile [a, b, c] (a batch rows, b time steps, c lanes) is flattened to [a*b, c] for a matrix product and
  the product is unflattened again; one time step is cut out of the tile and its unit axis dropped; a run of
  lanes is cut out; a lane vector [c] is laid out as [1, 1, c] and repeated over every row and time step.
  Each lemma says which single entry of the operand the result holds at (r, s, k).
-/
import Idealize.ShloMosaic.Lib.Pipeline.Value
import Idealize.ShloMosaic.Lib.ValueIdx
import Idealize.ShloMosaic.Lib.ValueLayout

noncomputable section

namespace Cert.LibTile

open Idealize.ShloMosaic Idealize.ShloMosaic.ValueIdx

variable {α : Type}

/-- A tile [a, b, c] flattened to [n, c] holds, in row `r * b + s`, the tile's row (r, s). -/
theorem flatten_apply {a b c n : ℕ} (x : (⟨3, ![a, b, c]⟩ : Shape).Idx → α)
    (h : (⟨3, ![a, b, c]⟩ : Shape).ShapeCasts ⟨2, ![n, c]⟩) (r : Fin a) (s : Fin b) (k : Fin c) (p : Fin n)
    (hp : p.val = r.val * b + s.val) :
    shapeCast ⟨2, ![n, c]⟩ x h (ix2 p k) = x (ix3 r s k) :=
  shapeCast_apply x h _ _ (by
    rw [Shape.rowMajor_val_three, Shape.rowMajor_val_two]
    show (r.val * b + s.val) * c + k.val = p.val * c + k.val
    rw [hp])

/-- An [n, c] array unflattened to a tile [a, b, c] holds, at (r, s), the array's row `r * b + s`. -/
theorem unflatten_apply {a b c n : ℕ} (y : (⟨2, ![n, c]⟩ : Shape).Idx → α)
    (h : (⟨2, ![n, c]⟩ : Shape).ShapeCasts ⟨3, ![a, b, c]⟩) (r : Fin a) (s : Fin b) (k : Fin c) (p : Fin n)
    (hp : p.val = r.val * b + s.val) :
    shapeCast ⟨3, ![a, b, c]⟩ y h (ix3 r s k) = y (ix2 p k) :=
  shapeCast_apply y h _ _ (by
    rw [Shape.rowMajor_val_three, Shape.rowMajor_val_two]
    show p.val * c + k.val = (r.val * b + s.val) * c + k.val
    rw [hp])

/-- Time step `s` cut out of a tile ([a, 1, c] at offset (0, s, 0)) with its unit axis dropped holds, at
    (r, k), the tile's entry (r, s, k). -/
theorem step_apply {a b c : ℕ} (x : (⟨3, ![a, b, c]⟩ : Shape).Idx → α) (s : ℕ)
    (hs : (⟨3, ![a, b, c]⟩ : Shape).Slices ![0, s, 0] ⟨3, ![a, 1, c]⟩)
    (hc : (⟨3, ![a, 1, c]⟩ : Shape).ShapeCasts ⟨2, ![a, c]⟩) (r : Fin a) (k : Fin c) (s' : Fin b) (hs' : s'.val = s) :
    shapeCast ⟨2, ![a, c]⟩ (extractStridedSlice ⟨3, ![a, 1, c]⟩ ![0, s, 0] x hs) hc (ix2 r k) = x (ix3 r s' k) := by
  refine (shapeCast_apply _ hc (ix2 r k) (ix3 r (⟨0, Nat.one_pos⟩ : Fin 1) k) ?_).trans ?_
  · rw [Shape.rowMajor_val_three, Shape.rowMajor_val_two]
    show (r.val * 1 + 0) * c + k.val = r.val * c + k.val
    rw [Nat.mul_one, Nat.add_zero]
  · exact extractStridedSlice_apply _ x hs _ _ (fun ax => match ax with
      | ⟨0, _⟩ => by show r.val = 0 + r.val; omega
      | ⟨1, _⟩ => by show s'.val = s + 0; omega
      | ⟨2, _⟩ => by show k.val = 0 + k.val; omega)

/-- A run of lanes starting at `off` cut out of a tile holds, at (r, s, k), the tile's entry (r, s, off + k). -/
theorem lanes_apply {a b c c' : ℕ} (x : (⟨3, ![a, b, c]⟩ : Shape).Idx → α) (off : ℕ)
    (h : (⟨3, ![a, b, c]⟩ : Shape).Slices ![0, 0, off] ⟨3, ![a, b, c']⟩) (r : Fin a) (s : Fin b) (k : Fin c')
    (k' : Fin c) (hk : k'.val = off + k.val) :
    extractStridedSlice ⟨3, ![a, b, c']⟩ ![0, 0, off] x h (ix3 r s k) = x (ix3 r s k') :=
  extractStridedSlice_apply _ x h _ _ (fun ax => match ax with
    | ⟨0, _⟩ => by show r.val = 0 + r.val; omega
    | ⟨1, _⟩ => by show s.val = 0 + s.val; omega
    | ⟨2, _⟩ => by show k'.val = off + k.val; exact hk)

/-- A lane vector [c] laid out as [1, 1, c] and repeated over a tile [a, b, c] holds, at (r, s, k), the
    vector's entry k. -/
theorem lanevec_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ v h1) h2 (ix3 r s k) = v (ix1 k) := by
  refine (broadcastTo_apply _ h2 (ix3 r s k) (ix3 (⟨0, Nat.one_pos⟩ : Fin 1) (⟨0, Nat.one_pos⟩ : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_one]
      show k.val = (0 * 1 + 0) * c + k.val
      rw [Nat.zero_mul, Nat.zero_add])

/-- A vector [c] laid out as one row [1, c] and repeated over [a, c] holds, at (r, k), the vector's entry k. -/
theorem rowvec_apply {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (r : Fin a) (k : Fin c) :
    broadcastTo ⟨2, ![a, c]⟩ (shapeCast ⟨2, ![1, c]⟩ v h1) h2 (ix2 r k) = v (ix1 k) :=
  (broadcastTo_1b_ab_apply _ h2 r k).trans (shapeCast_a_1a_apply v h1 _ k)

end Cert.LibTile

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibRowMax.lean ====
/-
  A maximum along one axis, read at an index of the result, on the extended reals.

  The vector unit's maximum along the last axis of a matrix [a, b], read at row p, is the fold of `max` from the
  accumulator's value over the row's entries (p, k), k : Fin b. The host's reduce by maximum over one axis is the same
  fold from its initial value's one element over that axis's coordinates. A fold of `max` is at least the value it
  starts from, so taking the maximum with that value once more changes nothing.
-/
import Idealize.ShloMosaic.PureOps.Ideal.Laws
import Idealize.ShloMosaic.Lib.ValueIdx

noncomputable section

namespace Cert.LibRowMax

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The vector unit's maximum along the rows of an [a, b] matrix, at row p: the fold of `max` from the accumulator's
    value over the row's entries. -/
theorem multiReduction_maximumf_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

/-- The host's reduce by maximum over one axis, at a result index j: the fold of `max` from the initial value's one
    element over that axis's coordinates put back into j. -/
theorem hostReduce_maximumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

/-- A fold of `max` that starts from b is at least b: the maximum of b and the fold is the fold. -/
theorem max_fold_max_self {ι : Type} (s : Finset ι) (b : EReal) (f : ι → EReal) :
    max b (s.fold max b f) = s.fold max b f :=
  max_eq_right ((Finset.le_fold_max b).2 (Or.inl le_rfl))

end Cert.LibRowMax

end
-- ==== Proof.Block.lean ====
/-
  What the kernel body stores for one block, entry by entry.

  The body works on one batch entry b and sixteen encoder frames at a time. It loads the block's sixteen encoder rows
  x0[0, p, ·], the batch entry's sixty-four decoder rows x1[0, q, ·], the whole transposed weight matrix x2[k, w] and the
  bias x3[w]; it lays the 16 · 64 pairs (p, q) out as the rows r = 64 p + q of one matrix, multiplies by x2, adds the
  bias along every row and takes the log-softmax of every row. Read at (0, p, q, v), what it stores is the log-softmax,
  at v, of the row
      w ↦ (Σ_k tanh (x0[0,p,k] + x1[0,q,k]) · x2[k,w]) + x3[w].
  The three stages are read one at a time, each at an index written by coordinates: the hidden rows, the logits, and
  the log-softmax of a row of any matrix of that shape.
-/
import proofs.«165159_j1580547971948_1_alg».proof.Proof.Gen.KernelIdeal.Skeleton
import proofs.«165159_j1580547971948_1_alg».proof.Proof.Spec
import proofs.«165159_j1580547971948_1_alg».proof.Proof.LibLayout
import proofs.«165159_j1580547971948_1_alg».proof.Proof.LibColumn
import proofs.«165159_j1580547971948_1_alg».proof.Proof.LibTile
import proofs.«165159_j1580547971948_1_alg».proof.Proof.LibMatmul
import proofs.«165159_j1580547971948_1_alg».proof.Proof.LibRowSum
import proofs.«165159_j1580547971948_1_alg».proof.Proof.LibRowMax
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The hidden rows: row r = 64 p + q of the matrix the product takes on its left is, at k, tanh of the sum of encoder
    row p and decoder row q at k. The encoder block is cast [1,16,640] → [16,640] → [16,1,640] and repeated along the
    middle axis, the decoder block is cast to [64,640] and back and repeated along the leading axis; the change of float
    format is the identity on the extended reals. -/
theorem hidden_apply (x0 : FVec Ideal S1x16x640 .f32) (x1 : FVec Ideal S1x64x640 .f32)
    (h1 : S1x16x640.ShapeCasts S16x640) (h2 : S16x640.ShapeCasts S16x1x640) (h3 : S16x1x640.Broadcasts S16x64x640)
    (g1 : S1x64x640.ShapeCasts S64x640) (g2 : S64x640.ShapeCasts S1x64x640) (g3 : S1x64x640.Broadcasts S16x64x640)
    (hb : FTy.bits .bf16 < FTy.bits .f32) (hf : S16x64x640.ShapeCasts S1024x640)
    (p : Fin 16) (q : Fin 64) (k : Fin 640) (r : Fin 1024) (hr : r.val = p.val * 64 + q.val) :
    shapeCast S1024x640 (truncf .bf16 (tanh (addf (broadcastTo S16x64x640 (shapeCast S16x1x640 (shapeCast S16x640 x0 h1) h2) h3)
        (broadcastTo S16x64x640 (shapeCast S1x64x640 (shapeCast S64x640 x1 g1) g2) g3))) hb) hf (ix2 r k)
      = Ideal.tanh (x0 (ix3 (0 : Fin 1) p k) + x1 (ix3 (0 : Fin 1) q k)) := by
  refine (Cert.LibTile.flatten_apply _ hf p q k r hr).trans ?_
  have eA : broadcastTo S16x64x640 (shapeCast S16x1x640 (shapeCast S16x640 x0 h1) h2) h3 (ix3 p q k) = x0 (ix3 (0 : Fin 1) p k) :=
    (broadcastTo_a1c_abc_apply _ h3 p q k).trans ((shapeCast_ac_a1c_apply _ h2 p (0 : Fin 1) k).trans (shapeCast_1ab_ab_apply x0 h1 p k))
  have eB : broadcastTo S16x64x640 (shapeCast S1x64x640 (shapeCast S64x640 x1 g1) g2) g3 (ix3 p q k) = x1 (ix3 (0 : Fin 1) q k) :=
    (broadcastTo_1bc_abc_apply _ g3 p q k).trans (congrFun (shapeCast_shapeCast x1 g1 g2) (ix3 (0 : Fin 1) q k))
  show Ideal.tanh (broadcastTo S16x64x640 (shapeCast S16x1x640 (shapeCast S16x640 x0 h1) h2) h3 (ix3 p q k)
      + broadcastTo S16x64x640 (shapeCast S1x64x640 (shapeCast S64x640 x1 g1) g2) g3 (ix3 p q k)) = _
  rw [eA, eB]

/-- The dimension numbers of the body's product pair the left operand's column with the right operand's row. -/
theorem dot_lhs0 (j : S1024x1025.Idx) (c : dot_S1024x640_S640x1025_S1024x1025_1_0_0_1_n_n.contr.Idx) :
    (dot_S1024x640_S640x1025_S1024x1025_1_0_0_1_n_n.lhsIdx j c 0).val = (j 0).val := by
  unfold DotDims.lhsIdx
  rw [dif_neg (show ¬(0 : Fin S1024x640.rank) ∈ dot_S1024x640_S640x1025_S1024x1025_1_0_0_1_n_n.lhsBatch by decide),
    dif_pos (show (0 : Fin S1024x640.rank) ∈ dot_S1024x640_S640x1025_S1024x1025_1_0_0_1_n_n.lhsNonContracting by decide)]
  rfl
theorem dot_rhs1 (j : S1024x1025.Idx) (c : dot_S1024x640_S640x1025_S1024x1025_1_0_0_1_n_n.contr.Idx) :
    (dot_S1024x640_S640x1025_S1024x1025_1_0_0_1_n_n.rhsIdx j c 1).val = (j 1).val := by
  unfold DotDims.rhsIdx
  rw [dif_neg (show ¬(1 : Fin S640x1025.rank) ∈ dot_S1024x640_S640x1025_S1024x1025_1_0_0_1_n_n.rhsBatch by decide),
    dif_pos (show (1 : Fin S640x1025.rank) ∈ dot_S1024x640_S640x1025_S1024x1025_1_0_0_1_n_n.rhsNonContracting by decide)]
  rfl

/-- The logits: the product of any left matrix H with the loaded weights, into zeros, plus the bias laid out as one row
    and repeated over the rows, is at (r, w) the sum over k of H[r,k] · x2[k,w], plus x3[w]. -/
theorem logits_apply (H : FVec Ideal S1024x640 .bf16) (x2 : FVec Ideal S640x1025 .bf16) (x3 : FVec Ideal S1025 .f32)
    (hs : S640x1025.ShapeCasts S640x1025) (hc : S1025.ShapeCasts S1x1025) (hbc : S1x1025.Broadcasts S1024x1025)
    (r : Fin 1024) (w : Fin 1025) :
    addf (matmul dot_S1024x640_S640x1025_S1024x1025_1_0_0_1_n_n none H (shapeCast S640x1025 x2 hs) (constant S1024x1025 .f32 0x00000000#32))
        (broadcastTo S1024x1025 (shapeCast S1x1025 x3 hc) hbc) (ix2 r w)
      = (∑ k : Fin 640, H (ix2 r k) * x2 (ix2 k w)) + x3 (ix1 w) := by
  have eM : matmul dot_S1024x640_S640x1025_S1024x1025_1_0_0_1_n_n none H (shapeCast S640x1025 x2 hs) (constant S1024x1025 .f32 0x00000000#32) (ix2 r w)
      = ∑ k : Fin 640, H (ix2 r k) * x2 (ix2 k w) := by
    rw [shapeCast_self x2 hs]
    exact Cert.LibMatmul.matmul_zero_ix2 dot_S1024x640_S640x1025_S1024x1025_1_0_0_1_n_n none rfl rfl dot_lhs0
      (fun j c => dot_S1024x640_S640x1025_S1024x1025_1_0_0_1_n_n.lhsIdx_val_of_single rfl j c)
      (fun j c => dot_S1024x640_S640x1025_S1024x1025_1_0_0_1_n_n.rhsIdx_val_of_single rfl j c) dot_rhs1 H x2 (ix2 r w)
  show matmul dot_S1024x640_S640x1025_S1024x1025_1_0_0_1_n_n none H (shapeCast S640x1025 x2 hs) (constant S1024x1025 .f32 0x00000000#32) (ix2 r w)
      + broadcastTo S1024x1025 (shapeCast S1x1025 x3 hc) hbc (ix2 r w) = _
  rw [eM, Cert.LibTile.rowvec_apply x3 hc hbc r w]

/-- The log-softmax of a row: for any matrix L of the logits' shape, the body's last stage — the row maxima kept as a
    column and repeated along the rows, the difference, its exponential summed along the rows, the logarithm of the
    sums kept as a column and repeated — is at (r, w) the log-softmax of row r of L at w. -/
theorem lsm_apply (L : FVec Ideal S1024x1025 .f32) (hred : S1024x1025.Reduces [1] S1024) (hφ : FKind.Formats .f32)
    (hm : (0xFF800000#32 : BitVec 32) = FKind.maximumf.neutral .f32 hφ) (ha : (0x00000000#32 : BitVec 32) = FKind.add.neutral .f32 hφ)
    (hc : S1024.ShapeCasts S1024x1) (hb : S1024x1.Broadcasts S1024x1025) (r : Fin 1024) (w : Fin 1025) :
    subf (subf L (broadcastTo S1024x1025 (shapeCast S1024x1 (multiReduction .maximumf [1] S1024 L 0xFF800000#32 hred hφ hm) hc) hb))
        (broadcastTo S1024x1025 (log (shapeCast S1024x1 (multiReduction .add [1] S1024
          (exp (subf L (broadcastTo S1024x1025 (shapeCast S1024x1 (multiReduction .maximumf [1] S1024 L 0xFF800000#32 hred hφ hm) hc) hb)))
          0x00000000#32 hred hφ ha) hc)) hb) (ix2 r w)
      = Cert.Joiner.logSoftmaxRow (Ideal.ofBits .f32 0xFF800000#32) (fun w' => L (ix2 r w')) w := by
  have eM : ∀ w' : Fin 1025,
      broadcastTo S1024x1025 (shapeCast S1024x1 (multiReduction .maximumf [1] S1024 L 0xFF800000#32 hred hφ hm) hc) hb (ix2 r w')
        = (Finset.univ : Finset (Fin 1025)).fold max (Ideal.ofBits .f32 0xFF800000#32) (fun k => L (ix2 r k)) := fun w' =>
    (broadcastTo_a1_ab_apply _ hb r w').trans ((shapeCast_a_a1_apply _ hc r (0 : Fin 1)).trans
      (Cert.LibRowMax.multiReduction_maximumf_row L _ hred hφ hm r))
  generalize broadcastTo S1024x1025 (shapeCast S1024x1 (multiReduction .maximumf [1] S1024 L 0xFF800000#32 hred hφ hm) hc) hb = MB at eM ⊢
  unfold Cert.Joiner.logSoftmaxRow
  show (L (ix2 r w) - MB (ix2 r w))
      - broadcastTo S1024x1025 (log (shapeCast S1024x1 (multiReduction .add [1] S1024 (exp (subf L MB)) 0x00000000#32 hred hφ ha) hc)) hb (ix2 r w) = _
  rw [broadcastTo_a1_ab_apply _ hb r w]
  show (L (ix2 r w) - MB (ix2 r w))
      - Ideal.log (shapeCast S1024x1 (multiReduction .add [1] S1024 (exp (subf L MB)) 0x00000000#32 hred hφ ha) hc (ix2 r (0 : Fin 1))) = _
  rw [shapeCast_a_a1_apply _ hc r (0 : Fin 1), Cert.LibRowSum.multiReduction_add_row _ _ hred hφ ha r, eM w]
  refine congrArg (fun z => _ - Ideal.log z) (Finset.sum_congr rfl fun w' _ => ?_)
  show Ideal.exp (L (ix2 r w') - MB (ix2 r w')) = _
  rw [eM w']

/-- WHAT THE BODY STORES at (0, p, q, v), from the four loaded blocks: the log-softmax at v of the logits of the pair
    (encoder row p, decoder row q). -/
theorem pay_apply (x0 : FVec Ideal S1x16x640 .f32) (x1 : FVec Ideal S1x64x640 .f32) (x2 : FVec Ideal S640x1025 .bf16)
    (x3 : FVec Ideal S1025 .f32) (p : Fin 16) (q : Fin 64) (v : Fin 1025) :
    k0_pay1 (F := Ideal) x0 x1 x2 x3 (ix4 (0 : Fin 1) p q v)
      = Cert.Joiner.logSoftmaxRow (Ideal.ofBits .f32 0xFF800000#32)
          (fun w => (∑ k : Fin 640, Ideal.tanh (x0 (ix3 (0 : Fin 1) p k) + x1 (ix3 (0 : Fin 1) q k)) * x2 (ix2 k w)) + x3 (ix1 w)) v := by
  have hr : (⟨p.val * 64 + q.val, by omega⟩ : Fin 1024).val = p.val * 64 + q.val := rfl
  unfold k0_pay1
  refine (shapeCast_abc_1abc_apply _ _ (0 : Fin 1) p q v).trans ?_
  refine (Cert.LibTile.unflatten_apply _ _ p q v ⟨p.val * 64 + q.val, by omega⟩ hr).trans ?_
  refine (lsm_apply _ _ _ _ _ _ _ ⟨p.val * 64 + q.val, by omega⟩ v).trans ?_
  refine congrArg (fun l => Cert.Joiner.logSoftmaxRow (Ideal.ofBits .f32 0xFF800000#32) l v) (funext fun w => ?_)
  refine (logits_apply _ x2 x3 _ _ _ ⟨p.val * 64 + q.val, by omega⟩ w).trans ?_
  refine congrArg (· + x3 (ix1 w)) (Finset.sum_congr rfl fun k _ => ?_)
  exact congrArg (· * x2 (ix2 k w)) (hidden_apply x0 x1 _ _ _ _ _ _ _ _ p q k ⟨p.val * 64 + q.val, by omega⟩ hr)

end Cert.KernelIdeal.Block

end
-- ==== Proof.KernelValue.lean ====
/-
  The kernel's result array, whole.

  Grid point t = (b, s) works on batch entry b and the sixteen encoder frames 16 s … 16 s + 15. Its encoder block is rows
  (b, 16 s + p, ·) of the encoder array, its decoder block rows (b, q, ·) of the decoder array, its weight block the
  whole transposed matrix — which @main lays out before the launch as the transpose of W (the change of float format
  being the identity here) — and its bias block the whole bias. What it writes back is block (b, s) of the output: the
  entries (b, 16 s + p, q, v). By the block lemma each of them is the specification's value at that index, the blocks
  of the 8 · 16 points cover the output array, and so the array ends as the specification of the four arguments.
-/
import proofs.«165159_j1580547971948_1_alg».proof.Proof.Gen.KernelIdeal.Value
import proofs.«165159_j1580547971948_1_alg».proof.Proof.Block
import proofs.«165159_j1580547971948_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 128 grid points: the encoder block moves with the output block on the
    batch and frame axes, the decoder block on the batch axis, the weights and the bias stay; the output's block
    index is (b, s, 0, 0) with b < 8 and s < 16. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0 ∧ win0_3.index t (0 : Fin 1) = 0
    ∧ win0_4.index t (2 : Fin 4) = 0 ∧ win0_4.index t (3 : Fin 4) = 0
    ∧ win0_4.index t (0 : Fin 4) < 8 ∧ win0_4.index t (1 : Fin 4) < 16 :=
  (by decide +kernel : ∀ t : Fin grid0.N, _)

/-- Every block index (b, s, 0, 0) is some grid point's. -/
theorem idx_onto : ∀ (b : Fin 8) (s : Fin 16), ∃ t : Fin cfg0.N, win0_4.index t = ![b.val, s.val, 0, 0] :=
  (by decide +kernel : ∀ (b : Fin 8) (s : Fin 16), ∃ t : Fin grid0.N, win0_4.index t = ![b.val, s.val, 0, 0])

/-! ## The input blocks as entries of the arguments -/

/-- The encoder block at point t = (b, s): entry (0, p, k) is the encoder array at (b, 16 s + p, k). -/
theorem enc_block (c : Dev nD) (t : Fin cfg0.N) (y : S1x16x640.Idx) (i : S8x256x640.Idx)
    (h0 : (i 0).val = win0_4.index t (0 : Fin 4)) (h1 : (i 1).val = win0_4.index t (1 : Fin 4) * 16 + (y 1).val)
    (h2 : (i 2).val = (y 2).val) :
    (iblk m c 0 t : Vec Ideal S1x16x640 .f32) y = (m ((c : Thread nD τ).loc main_arg0) : S8x256x640.Idx → EReal) i := by
  obtain ⟨e0, e1, e2, -⟩ := idx_facts t
  unfold iblk
  rw [View.read_apply]
  show V m c main_arg0 (((cfg0.win 0).blk t).view.emb y) = _
  rw [V_main_arg0]
  refine congrArg _ (funext fun a => Fin.ext ?_)
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 16 + 1 * (y 1).val = (i 1).val; omega
  | ⟨2, _⟩ => show win0_0.index t (2 : Fin 3) * 640 + 1 * (y 2).val = (i 2).val; omega

/-- The decoder block at point t = (b, s): entry (0, q, k) is the decoder array at (b, q, k). -/
theorem dec_block (c : Dev nD) (t : Fin cfg0.N) (y : S1x64x640.Idx) (i : S8x64x640.Idx)
    (h0 : (i 0).val = win0_4.index t (0 : Fin 4)) (h1 : (i 1).val = (y 1).val) (h2 : (i 2).val = (y 2).val) :
    (iblk m c 1 t : Vec Ideal S1x64x640 .f32) y = (m ((c : Thread nD τ).loc main_arg1) : S8x64x640.Idx → EReal) i := by
  obtain ⟨-, -, -, e0, e1, e2, -⟩ := idx_facts t
  unfold iblk
  rw [View.read_apply]
  show V m c main_arg1 (((cfg0.win 1).blk t).view.emb y) = _
  rw [V_main_arg1]
  refine congrArg _ (funext fun a => Fin.ext ?_)
  have hy0 : (y 0).val < 1 := (y 0).isLt
  match a with
  | ⟨0, _⟩ => show win0_1.index t (0 : Fin 3) * 1 + 1 * (y 0).val = (i 0).val; omega
  | ⟨1, _⟩ => show win0_1.index t (1 : Fin 3) * 64 + 1 * (y 1).val = (i 1).val; omega
  | ⟨2, _⟩ => show win0_1.index t (2 : Fin 3) * 640 + 1 * (y 2).val = (i 2).val; omega

/-- The array the weight window stages is what @main wrote before the launch: W transposed, in the narrower format. -/
theorem wt_array (c : Dev nD) :
    @Eq (S640x1025.Idx → EReal) (V m c main_v1)
      (truncf (F := Ideal) .bf16 (transpose S640x1025 [1, 0] (m ((c : Thread nD τ).loc main_arg2) : S1025x640.Idx → Ideal .f32)
          transposes_S1025x640_S640x1025_1_0) bitsLt_bf16_f32) := by
  dsimp only [Gen.V, Gen.hostOps0]
  after_results

/-- The weight block at any point is the whole staged array: entry (k, w) is W at (w, k). -/
theorem wt_block (c : Dev nD) (t : Fin cfg0.N) (k : Fin 640) (w : Fin 1025) :
    (iblk m c 2 t : Vec Ideal S640x1025 .bf16) (ix2 k w) = (m ((c : Thread nD τ).loc main_arg2) : S1025x640.Idx → EReal) (ix2 w k) := by
  obtain ⟨-, -, -, -, -, -, e0, e1, -⟩ := idx_facts t
  unfold iblk
  rw [View.read_apply]
  show (V m c main_v1 : S640x1025.Idx → EReal) (((cfg0.win 2).blk t).view.emb (ix2 k w)) = _
  have he : ((cfg0.win 2).blk t).view.emb (ix2 k w) = (ix2 k w : S640x1025.Idx) := by
    funext a; apply Fin.ext
    match a with
    | ⟨0, _⟩ => show win0_2.index t (0 : Fin 2) * 640 + 1 * k.val = k.val; omega
    | ⟨1, _⟩ => show win0_2.index t (1 : Fin 2) * 1025 + 1 * w.val = w.val; omega
  rw [he, wt_array]
  exact transpose_ix2_apply _ _ k w

/-- The bias block at any point is the whole bias. -/
theorem bias_block (c : Dev nD) (t : Fin cfg0.N) (w : Fin 1025) :
    (iblk m c 3 t : Vec Ideal S1025 .f32) (ix1 w) = (m ((c : Thread nD τ).loc main_arg3) : S1025.Idx → EReal) (ix1 w) := by
  obtain ⟨-, -, -, -, -, -, -, -, e0, -⟩ := idx_facts t
  unfold iblk
  rw [View.read_apply]
  show V m c main_arg3 (((cfg0.win 3).blk t).view.emb (ix1 w)) = _
  rw [V_main_arg3]
  refine congrArg _ (funext fun a => Fin.ext ?_)
  match a with
  | ⟨0, _⟩ => show win0_3.index t (0 : Fin 1) * 1025 + 1 * w.val = w.val; omega

/-! ## One point's block of the specification -/

/-- The specification of the arguments as this program's memory holds them. -/
abbrev G (c : Dev nD) : S8x256x64x1025.Idx → EReal :=
  Cert.Joiner.joiner (Ideal.ofBits .f32 0xFF800000#32) (m ((c : Thread nD τ).loc main_arg0)) (m ((c : Thread nD τ).loc main_arg1))
    (m ((c : Thread nD τ).loc main_arg2)) (m ((c : Thread nD τ).loc main_arg3))

/-- What the body stores from point t's input blocks, at a block index j, is the specification at the array index i
    that j stands for in block t. -/
theorem stored_eq (c : Dev nD) (t : Fin cfg0.N) (j : S1x16x64x1025.Idx) (i : S8x256x64x1025.Idx)
    (h0 : (i 0).val = win0_4.index t (0 : Fin 4)) (h1 : (i 1).val = win0_4.index t (1 : Fin 4) * 16 + (j 1).val)
    (h2 : (i 2).val = (j 2).val) (h3 : (i 3).val = (j 3).val) :
    k0_pay1 (F := Ideal) (iblk m c 0 t) (iblk m c 1 t) (iblk m c 2 t) (iblk m c 3 t) j = G m c i := by
  obtain ⟨u0, p, q, v, rfl⟩ : ∃ (u0 : Fin 1) (p : Fin 16) (q : Fin 64) (v : Fin 1025), j = ix4 u0 p q v :=
    ⟨j 0, j 1, j 2, j 3, eq_ix4 j⟩
  obtain rfl : u0 = 0 := Subsingleton.elim _ _
  obtain ⟨b, f, u, v', rfl⟩ : ∃ (b : Fin 8) (f : Fin 256) (u : Fin 64) (v' : Fin 1025), i = ix4 b f u v' :=
    ⟨i 0, i 1, i 2, i 3, eq_ix4 i⟩
  obtain rfl : u = q := Fin.ext h2
  obtain rfl : v' = v := Fin.ext h3
  rw [Cert.KernelIdeal.Block.pay_apply]
  show _ = Cert.Joiner.logSoftmaxRow (Ideal.ofBits .f32 0xFF800000#32)
    (Cert.Joiner.logit (m ((c : Thread nD τ).loc main_arg0)) (m ((c : Thread nD τ).loc main_arg1))
      (m ((c : Thread nD τ).loc main_arg2)) (m ((c : Thread nD τ).loc main_arg3)) b f u) v'
  refine congrArg (fun l => Cert.Joiner.logSoftmaxRow (Ideal.ofBits .f32 0xFF800000#32) l v') (funext fun w => ?_)
  unfold Cert.Joiner.logit
  rw [bias_block m c t w]
  refine congrArg (· + _) (Finset.sum_congr rfl fun k _ => ?_)
  rw [enc_block m c t (ix3 (0 : Fin 1) p k) (ix3 b f k) h0 h1 rfl, dec_block m c t (ix3 (0 : Fin 1) u k) (ix3 b u k) h0 rfl rfl,
    wt_block m c t k w]

/-- WHAT POINT t WRITES BACK is block t of the specification. -/
theorem flushed_eq (c : Dev nD) (t : Fin cfg0.N) :
    (dats m 0 c).flushed 4 t = ((cfg0.win 4).blk t).view.read (Elt Ideal) (G m c) := by
  rw [flushed4]
  unfold out0_4
  rw [View.canon_unit_zero hz4]
  simp only [View.ld_unit_zero (S := S1x16x640) hz3, View.ld_unit_zero (S := S1x64x640) hz3, View.ld_unit_zero (S := S640x1025) hz2,
    View.ld_unit_zero (S := S1025) hz1]
  obtain ⟨-, -, -, -, -, -, -, -, -, e2, e3, -⟩ := idx_facts t
  funext j
  show k0_pay1 (F := Ideal) (iblk m c 0 t) (iblk m c 1 t) (iblk m c 2 t) (iblk m c 3 t) j = G m c (((cfg0.win 4).blk t).view.emb j)
  have hj0 : (j 0).val < 1 := (j 0).isLt
  refine stored_eq m c t j _ ?_ ?_ ?_ ?_
  · show win0_4.index t (0 : Fin 4) * 1 + 1 * (j 0).val = _; omega
  · show win0_4.index t (1 : Fin 4) * 16 + 1 * (j 1).val = _; omega
  · show win0_4.index t (2 : Fin 4) * 64 + 1 * (j 2).val = _; omega
  · show win0_4.index t (3 : Fin 4) * 1025 + 1 * (j 3).val = _; omega

/-! ## The blocks cover the array -/

/-- An index of the output array is in point t's block iff each coordinate is in the block's range on its axis. -/
theorem mem_blk (t : Fin cfg0.N) (i : S8x256x64x1025.Idx) :
    i ∈ ((cfg0.win 4).blk t).view.set ↔ ∀ a : Fin 4, win0_4.index t a * S1x16x64x1025.size a ≤ (i a).val
      ∧ (i a).val < win0_4.index t a * S1x16x64x1025.size a + S1x16x64x1025.size a := by
  show i ∈ ((View.whole main_v2).slice (win0_4.rect t)).set ↔ _
  rw [View.set_slice_whole, Rect.mem_set_unit]
  exact Iff.rfl

/-- Every index of the output array lies in the block of the point (its batch entry, its frame / 16). -/
theorem cover (i : S8x256x64x1025.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1025 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 64 ≤ (i 2).val ∧ (i 2).val < win0_4.index t (2 : Fin 4) * 64 + 64; omega
  | ⟨3, _⟩ => show win0_4.index t (3 : Fin 4) * 1025 ≤ (i 3).val ∧ (i 3).val < win0_4.index t (3 : Fin 4) * 1025 + 1025; omega

/-- THE OUTPUT ARRAY after the run is the specification of the four arguments. -/
theorem final (c : Dev nD) : (dats m 0 c).arrAt 4 cfg0.N = G m c :=
  (dats m 0 c).arrAt_eq_of_cover 4 (G m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.LibTypedRef.lean ====
/-
  A typed reference's two transports cancel.

  A host function's buffers are typed references: contents pass into the buffer's own type and back out of it along the
  equation between the two types. Out after in, for one and the same reference, is the identity — whatever the
  reference, so nothing about its buffer's type has to be computed.
-/
import Idealize.ShloMosaic.Lib.StableHlo.Run

namespace Idealize.ShloMosaic.StableHlo.TRef

variable {sig : RefSig} {Val : EltTy → Type} {T : BufTy}

/-- Contents put into a typed reference's buffer type and taken back out are the contents. -/
theorem ofBuf_toBuf (x : TRef sig T) (v : T.Contents Val) : x.ofBuf (x.toBuf v) = v := by
  obtain ⟨r, h, h2, h3⟩ := x
  subst h
  rfl

/-- Contents taken out of a typed reference's buffer type and put back are the contents. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.RefIsSpec.lean ====
/-
  The reference computes the joint network's log-probabilities, read index by index.

  Its program broadcasts the encoder rows along the decoder axis and the decoder rows along the frame axis, adds, takes
  tanh, contracts the hidden axis against the rows of W, adds the bias, and calls log-softmax along the token axis:
  the maximum along that axis from the pattern of -∞, once more the maximum with that same value (which changes
  nothing: a fold of `max` is at least its starting value), the difference, the sum of its exponentials from zero,
  the logarithm, the difference. Each stage is read at an index written by coordinates; the composed index maps of
  the broadcasts are identified with the coordinates once, below.
-/
import proofs.«165159_j1580547971948_1_alg».proof.Proof.RefRead
import proofs.«165159_j1580547971948_1_alg».proof.Proof.Spec
import proofs.«165159_j1580547971948_1_alg».proof.Proof.LibRowMax

noncomputable section

namespace Cert.ReferenceIdeal.RefValue

open Cert.ReferenceIdeal Cert.ReferenceIdeal.Gen Cert.ReferenceIdeal.ReadP Idealize.ShloMosaic Idealize.ShloMosaic.ValueIdx

variable (x0 : (⟨S8x256x640, .f32⟩ : BufTy).Contents (Elt Ideal)) (x1 : (⟨S8x64x640, .f32⟩ : BufTy).Contents (Elt Ideal))
  (x2 : (⟨S1025x640, .f32⟩ : BufTy).Contents (Elt Ideal)) (x3 : (⟨S1025, .f32⟩ : BufTy).Contents (Elt Ideal))

/-! ## The broadcasts' composed index maps, by coordinates -/

theorem enc_idx (b : Fin 8) (t : Fin 256) (u : Fin 64) (w : Fin 1025) (k : Fin 640) :
    idx_main_v0 (idx_main_v2 (lidx_main_v6 (ix4 b t u w) k)) = ix3 b t k :=
  funext fun a => Fin.ext (by match a with | ⟨0, _⟩ => rfl | ⟨1, _⟩ => rfl | ⟨2, _⟩ => rfl)
theorem dec_idx (b : Fin 8) (t : Fin 256) (u : Fin 64) (w : Fin 1025) (k : Fin 640) :
    idx_main_v1 (idx_main_v3 (lidx_main_v6 (ix4 b t u w) k)) = ix3 b u k :=
  funext fun a => Fin.ext (by match a with | ⟨0, _⟩ => rfl | ⟨1, _⟩ => rfl | ⟨2, _⟩ => rfl)
theorem w_idx (b : Fin 8) (t : Fin 256) (u : Fin 64) (w : Fin 1025) (k : Fin 640) :
    ridx_main_v6 (ix4 b t u w) k = ix2 w k :=
  funext fun a => Fin.ext (by match a with | ⟨0, _⟩ => rfl | ⟨1, _⟩ => rfl)
theorem bias_idx (b : Fin 8) (t : Fin 256) (u : Fin 64) (w : Fin 1025) :
    idx_main_v7 (idx_main_v8 (ix4 b t u w)) = ix1 w :=
  funext fun a => Fin.ext (by match a with | ⟨0, _⟩ => rfl)
theorem max_idx (b : Fin 8) (t : Fin 256) (u : Fin 64) (w : Fin 1025) :
    idx_main_call0_v3 (idx_main_call0_v4 (ix4 b t u w)) = ix3 b t u :=
  funext fun a => Fin.ext (by match a with | ⟨0, _⟩ => rfl | ⟨1, _⟩ => rfl | ⟨2, _⟩ => rfl)
theorem sum_idx (b : Fin 8) (t : Fin 256) (u : Fin 64) (w : Fin 1025) :
    idx_main_call0_v8 (idx_main_call0_v10 (ix4 b t u w)) = ix3 b t u :=
  funext fun a => Fin.ext (by match a with | ⟨0, _⟩ => rfl | ⟨1, _⟩ => rfl | ⟨2, _⟩ => rfl)
theorem term_idx (b : Fin 8) (t : Fin 256) (u : Fin 64) (k : Fin 1025) :
    idx_main_call0_v7 (ix3 b t u) k = ix4 b t u k :=
  funext fun a => Fin.ext (by match a with | ⟨0, _⟩ => rfl | ⟨1, _⟩ => rfl | ⟨2, _⟩ => rfl | ⟨3, _⟩ => rfl)

/-! ## The stages -/

/-- The logits: the reference's sum of the product and the bias at (b, t, u, w) is the specification's logit. -/
theorem logits_eq (b : Fin 8) (t : Fin 256) (u : Fin 64) (w : Fin 1025) :
    val_main_v9 (F := Ideal) x0 x1 x2 x3 (ix4 b t u w) = Cert.Joiner.logit x0 x1 x2 x3 b t u w := by
  rw [val_main_v9_apply, val_main_v6_apply, val_main_v8_apply, val_main_v7_apply, bias_idx]
  unfold Cert.Joiner.logit
  refine congrArg (· + x3 (ix1 w)) (Finset.sum_congr rfl fun k _ => ?_)
  rw [val_main_v5_apply, val_main_v4_apply, val_main_v2_apply, val_main_v0_apply, val_main_v3_apply, val_main_v1_apply,
    enc_idx, dec_idx, w_idx]
  rfl

/-- The token axis is the one the reference's reductions drop. -/
theorem hred : S8x256x64x1025.Reduces [3] S8x256x64 := by decide

/-- Over (b, t, u), the token axis put back at w is the index (b, t, u, w). -/
theorem lift_tok (h : S8x256x64x1025.Reduces [3] S8x256x64) (b : Fin 8) (t : Fin 256) (u : Fin 64) (w : Fin 1025) :
    h.lift (ix3 b t u) w = ix4 b t u w := by
  funext c
  match c with
  | ⟨0, _⟩ => exact Fin.ext rfl
  | ⟨1, _⟩ => exact Fin.ext rfl
  | ⟨2, _⟩ => exact Fin.ext rfl
  | ⟨3, _⟩ => exact Fin.ext rfl

/-- The row maximum the reference subtracts: the fold of `max`, from the value of the -∞ pattern, over the logits of
    (b, t, u); the second maximum with that value is absorbed. -/
theorem rowmax_eq (b : Fin 8) (t : Fin 256) (u : Fin 64) :
    val_main_call0_v2 (F := Ideal) x0 x1 x2 x3 (ix3 b t u)
      = (Finset.univ : Finset (Fin 1025)).fold max (Ideal.ofBits .f32 0xFF800000#32) (Cert.Joiner.logit x0 x1 x2 x3 b t u) := by
  have e0 : val_main_call0_v0 (F := Ideal) x0 x1 x2 x3 (ix3 b t u)
      = (Finset.univ : Finset (Fin 1025)).fold max (Ideal.ofBits .f32 0xFF800000#32) (Cert.Joiner.logit x0 x1 x2 x3 b t u) := by
    unfold val_main_call0_v0
    refine (Cert.LibRowMax.hostReduce_maximumf_single (val_main_v9 (F := Ideal) x0 x1 x2 x3) (val_main_call0_cst (F := Ideal))
      reducesTo_S8x256x64x1025_S8x256x64_d3 hred h_S_ (ix3 b t u)).trans ?_
    show (Finset.univ : Finset (Fin 1025)).fold max (Ideal.ofBits .f32 0xFF800000#32)
      (fun w : Fin 1025 => val_main_v9 (F := Ideal) x0 x1 x2 x3 (hred.lift (ix3 b t u) w)) = _
    refine congrArg ((Finset.univ : Finset (Fin 1025)).fold max (Ideal.ofBits .f32 0xFF800000#32)) (funext fun (w : Fin 1025) => ?_)
    exact (congrArg (val_main_v9 (F := Ideal) x0 x1 x2 x3) (lift_tok hred b t u w)).trans (logits_eq x0 x1 x2 x3 b t u w)
  rw [val_main_call0_v2_apply, val_main_call0_v1_apply, val_main_call0_cst_0_apply, e0]
  exact Cert.LibRowMax.max_fold_max_self _ _ _

/-- The shifted logits: the logit less the row maximum. -/
theorem shifted_eq (b : Fin 8) (t : Fin 256) (u : Fin 64) (w : Fin 1025) :
    val_main_call0_v5 (F := Ideal) x0 x1 x2 x3 (ix4 b t u w)
      = Cert.Joiner.logit x0 x1 x2 x3 b t u w
        - (Finset.univ : Finset (Fin 1025)).fold max (Ideal.ofBits .f32 0xFF800000#32) (Cert.Joiner.logit x0 x1 x2 x3 b t u) := by
  rw [val_main_call0_v5_apply, val_main_call0_v4_apply, val_main_call0_v3_apply, max_idx, rowmax_eq, logits_eq]
  rfl

/-- THE REFERENCE IS THE SPECIFICATION: its result array is the joint network's log-probabilities of its arguments. -/
theorem result_eq : val_main_v10 (F := Ideal) x0 x1 x2 x3
    = Cert.Joiner.joiner (Ideal.ofBits .f32 0xFF800000#32) x0 x1 x2 x3 := by
  funext i
  obtain ⟨b, t, u, v, rfl⟩ : ∃ (b : Fin 8) (t : Fin 256) (u : Fin 64) (v : Fin 1025), i = ix4 b t u v :=
    ⟨i 0, i 1, i 2, i 3, eq_ix4 i⟩
  rw [Cert.Joiner.joiner_ix4, val_main_v10_apply, val_main_call0_v10_apply, val_main_call0_v9_apply, val_main_call0_v8_apply,
    sum_idx, val_main_call0_v7_apply, val_main_call0_cst_1_apply, shifted_eq]
  unfold Cert.Joiner.logSoftmaxRow
  show _ - Ideal.log (Ideal.ofBits .f32 0x00000000#32 + _) = _
  rw [Ideal.ofBits_zero_f32, zero_add]
  refine congrArg (fun z => _ - Ideal.log z) (Finset.sum_congr rfl fun w _ => ?_)
  rw [val_main_call0_v6_apply, term_idx, shifted_eq]
  rfl

end Cert.ReferenceIdeal.RefValue

end
-- ==== Proof.lean ====
/-
  The joint network of a transducer — log-softmax over the tokens of (tanh(enc[b,t,·] + dec[b,u,·]) · Wᵀ + bias) — as a
  Pallas kernel over blocks of sixteen encoder frames, against its jnp reference: equal results on the extended reals.

  The specification (Proof/Spec.lean) is the result array as one function of the four arguments. The kernel's body
  stores, for each pair of an encoder row and a decoder row of its blocks, the log-softmax of that pair's logits
  (Proof/Block.lean); the 8 · 16 grid points' blocks are restrictions of the specification and cover the output array
  (Proof/KernelValue.lean). The reference computes the same expression stage by stage (Proof/RefIsSpec.lean, over the
  reference's run, Proof/RefRun.lean and Proof/RefRead.lean). The two programs differ only in layout — which rows sit
  in which block, a product into zeros against a contraction, a sum from zero against a sum, one more maximum with the
  value the row maximum started from — so no precondition is used. The idealization rewrote nothing, so `preserves` is
  trivial; the three frames are the generated frame certificates and the reference's run.
-/
import proofs.«165159_j1580547971948_1_alg».proof.Defs
import proofs.«165159_j1580547971948_1_alg».proof.Proof.Gen.Kernel
import proofs.«165159_j1580547971948_1_alg».proof.Proof.Gen.Kernel.Skeleton
import proofs.«165159_j1580547971948_1_alg».proof.Proof.Gen.Kernel.Launch
import proofs.«165159_j1580547971948_1_alg».proof.Proof.Gen.Kernel.Points
import proofs.«165159_j1580547971948_1_alg».proof.Proof.Gen.Kernel.Frame
import proofs.«165159_j1580547971948_1_alg».proof.Proof.Gen.KernelIdeal
import proofs.«165159_j1580547971948_1_alg».proof.Proof.Gen.KernelIdeal.Skeleton
import proofs.«165159_j1580547971948_1_alg».proof.Proof.Gen.KernelIdeal.Launch
import proofs.«165159_j1580547971948_1_alg».proof.Proof.Gen.KernelIdeal.Points
import proofs.«165159_j1580547971948_1_alg».proof.Proof.Gen.KernelIdeal.Frame
import proofs.«165159_j1580547971948_1_alg».proof.Proof.Gen.ReferenceIdeal
import proofs.«165159_j1580547971948_1_alg».proof.Proof.Gen.Pre_finite_inputs
import proofs.«165159_j1580547971948_1_alg».proof.Proof.Gen.KernelIdeal.Value
import proofs.«165159_j1580547971948_1_alg».proof.Proof.KernelValue
import proofs.«165159_j1580547971948_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at the specification of the (agreeing) arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v10_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
